-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S2x1x1 : Shape := ⟨3, ![2, 1, 1]⟩
abbrev S128x8192 : Shape := ⟨2, ![128, 8192]⟩
abbrev S1x1x1 : Shape := ⟨3, ![1, 1, 1]⟩
abbrev S1x1 : Shape := ⟨2, ![1, 1]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S1x1x1, .f32⟩
  | .local _ .vmem, ⟨3, _⟩ => ⟨S1x1x1, .f32⟩
  | .local _ .vmem, ⟨4, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v26 : BitVec 1 := Scalar.cmpi .eq arg1 c31_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  reduces_S128x1_S1 : S128x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  shapeCasts_S_S_ : S_.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_

variable [Facts₀]

class Facts : Prop extends Facts₀ where

variable [Facts]
-- ==== Proof.Consts.lean ====
/-
  The smoothing constant c = 1 − α + α/V (α = 0.154, V = 8192), as the f32 word both programs spell, denotes a
  nonnegative real number. This is the only fact about the constant's value that the proof uses: it makes
  p · log (c − p) different from +∞ at every extended real p.
-/
import Idealize.ShloMosaic.PureOps.Ideal

noncomputable section

namespace Cert.Consts

open Idealize.ShloMosaic

/-- The word 0x3F5894B0 is the dyadic rational 14193840 / 2²⁴ (about 0.846018791). -/
theorem ofBits_smooth : Ideal.ofBits .f32 0x3F5894B0#32 = ((14193840 / 16777216 : ℝ) : EReal) := by
  simp [Ideal.ofBits, Ideal.ieee, -EReal.coe_mul]; norm_num

/-- So it denotes a real number that is not negative. -/
theorem smooth_real : ∃ r : ℝ, 0 ≤ r ∧ Ideal.ofBits .f32 0x3F5894B0#32 = (r : EReal) :=
  ⟨14193840 / 16777216, by norm_num, ofBits_smooth⟩

end Cert.Consts

end
-- ==== Proof.Pieces.lean ====
/-
  What each control case of the body leaves behind, as values.

  The body has three cases over the grid. At the first point of a half (case A) it stores zero into the accumulator,
  reads it back and stores back zero-accumulator + block sum. At an inner point (case B) it stores back
  accumulator + block sum. At the last point of a half (case C) it does the same and then stores 0 − accumulator into
  the output block. Each store covers its whole buffer, so what a buffer holds afterwards is the last store's value, as
  a function of the block the body loaded and of the accumulator it found. The statements hold at every float instance.
-/
import proofs.«107075_j19705309954423_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A: the accumulator ends at the accumulating value over the zero the case stored first. -/
theorem acc_A (c : Dev nD) (i : grid0.Coords) (a2 : Memref sig .tc .vmem S128x8192 .f32) (h2 : a2.IsWhole)
    (a3 : Memref sig .tc .vmem S1x1x1 .f32) (h3 : a3.IsWhole) (a4 : Memref sig .tc .vmem S1x1 .f32) (h4 : a4.IsWhole)
    (hc0 : cond0_0 i) (hc1 : ¬cond0_1 i) (x0 : Vec F S128x8192 .f32) :
    sout0_A_0 c i a2 h2 a3 h3 a4 h4 hc0 hc1 x0 = k0_pay2 x0 k0_pay1 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S1x1) hz2, View.readCov_unit_zero (S := S1x1) _ hz2]
  simp only [View.readAt_eq_ld, h2.read_unread, View.ld_unit_zero (S := S128x8192) hz2]

/-- Case B: the accumulator ends at the accumulating value over what it held. -/
theorem acc_B (c : Dev nD) (i : grid0.Coords) (a2 : Memref sig .tc .vmem S128x8192 .f32) (h2 : a2.IsWhole)
    (a3 : Memref sig .tc .vmem S1x1x1 .f32) (h3 : a3.IsWhole) (a4 : Memref sig .tc .vmem S1x1 .f32) (h4 : a4.IsWhole)
    (hc0 : ¬cond0_0 i) (hc1 : ¬cond0_1 i) (x0 : Vec F S128x8192 .f32) (xs0 : Vec F S1x1 .f32) :
    sout0_B_0 c i a2 h2 a3 h3 a4 h4 hc0 hc1 x0 xs0 = k0_pay2 x0 xs0 := by
  unfold sout0_B_0
  rw [View.read_writes_eq_canon _ _ _ (scover0_B_0 c i a2 h2 a3 h3 a4 h4 hc0 hc1 x0 xs0)]
  unfold kernelRun0_B
  dsimp only
  sl_unfold_words
  rw [View.canon_unit_zero (S := S1x1) hz2]
  simp only [View.readAt_eq_ld, h2.read_unread, h4.read_unread, View.ld_unit_zero (S := S128x8192) hz2,
    View.ld_unit_zero (S := S1x1) hz2]

/-- Case C: the accumulator ends as in case B, -/
theorem acc_C (c : Dev nD) (i : grid0.Coords) (a2 : Memref sig .tc .vmem S128x8192 .f32) (h2 : a2.IsWhole)
    (a3 : Memref sig .tc .vmem S1x1x1 .f32) (h3 : a3.IsWhole) (a4 : Memref sig .tc .vmem S1x1 .f32) (h4 : a4.IsWhole)
    (hc0 : ¬cond0_0 i) (hc1 : cond0_1 i) (x0 : Vec F S128x8192 .f32) (xs0 : Vec F S1x1 .f32) :
    sout0_C_0 c i a2 h2 a3 h3 a4 h4 hc0 hc1 x0 xs0 = k0_pay2 x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero (S := S1x1) hz2]
  simp only [View.readAt_eq_ld, h2.read_unread, h4.read_unread, View.ld_unit_zero (S := S128x8192) hz2,
    View.ld_unit_zero (S := S1x1) hz2]

/-- and the output block holds the negating value of that accumulator. -/
theorem out_C (c : Dev nD) (i : grid0.Coords) (a2 : Memref sig .tc .vmem S128x8192 .f32) (h2 : a2.IsWhole)
    (a3 : Memref sig .tc .vmem S1x1x1 .f32) (h3 : a3.IsWhole) (a4 : Memref sig .tc .vmem S1x1 .f32) (h4 : a4.IsWhole)
    (hc0 : ¬cond0_0 i) (hc1 : cond0_1 i) (x0 : Vec F S128x8192 .f32) (xs0 : Vec F S1x1 .f32) :
    out0_C_1 c i a2 h2 a3 h3 a4 h4 hc0 hc1 x0 xs0 = k0_pay3 (k0_pay2 x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero (S := S1x1x1) hz3, View.readCov_unit_zero (S := S1x1) _ hz2]
  simp only [View.readAt_eq_ld, h2.read_unread, h4.read_unread, View.ld_unit_zero (S := S128x8192) hz2,
    View.ld_unit_zero (S := S1x1) hz2]

end Cert.KernelIdeal.Pieces

end
-- ==== Proof.Entropy.lean ====
/-
  The smoothed cross-entropy sum over the extended reals, as one function of the input matrix, and the two laws that
  join the kernel's arrangement of it to the reference's.

  For a row f of the matrix let M = max over the row (from the starting value b), e k = exp (f k − M), S = ∑ k, e k,
  p l = e l / S (the row's softmax) and entry l = p l · log (c − p l). The loss is minus the sum of all entries.
  The reference adds all entries in one sum and negates. The kernel adds them row by row inside a block of 128 rows,
  block by block over the 32 blocks of each half of the matrix, negates each half's sum, and adds the two halves.

  Sums over the extended reals may be regrouped freely (addition is commutative and associative there). Negation
  distributes over a sum of two terms only when they are not opposite infinities; here no entry is +∞, for a real c ≥ 0
  and ANY extended real p (`mul_log_sub_ne_top`): at p = −∞ the term is −∞ · log (+∞) = −∞; at p = +∞ it is
  +∞ · log (−∞) = −∞; at a real p with c − p ≤ 0, so p ≥ c ≥ 0, it is p · (−∞), which is 0 or −∞; at a real p with
  c − p > 0 it is a product of two reals. So no partial sum is +∞ and the two halves can be negated separately.
-/
import Idealize.ShloMosaic.PureOps.Ideal
import Idealize.ShloMosaic.Lib.ValueIdx
import Mathlib.Algebra.BigOperators.Fin
import Mathlib.Logic.Equiv.Fin.Basic

noncomputable section

namespace Cert.Entropy

open Idealize.ShloMosaic

/-! ## The function -/

/-- The two float words both programs spell, read as extended reals: the starting value of the row maximum (the word of
    −∞) and the smoothing constant c. Neither is evaluated where the two sides are compared. -/
abbrev lo : EReal := Ideal.ofBits .f32 0xFF800000#32
abbrev smooth : EReal := Ideal.ofBits .f32 0x3F5894B0#32

variable (b c : EReal)

/-- The row's maximum, folded from the starting value `b` (both programs start from the word of −∞). -/
def rowMax {n : ℕ} (f : Fin n → EReal) : EReal := (Finset.univ : Finset (Fin n)).fold max b f

/-- The row's softmax at column `l`: exp (f l − M) over the sum of the row's exponentials. -/
def prob {n : ℕ} (f : Fin n → EReal) (l : Fin n) : EReal :=
  Ideal.div (Ideal.exp (f l - rowMax b f)) (∑ k : Fin n, Ideal.exp (f k - rowMax b f))

/-- One entry's term p · log (c − p). -/
def entry {n : ℕ} (f : Fin n → EReal) (l : Fin n) : EReal :=
  prob b f l * Ideal.log (c - prob b f l)

/-- A row's sum of its entries. -/
def rowLoss {n : ℕ} (f : Fin n → EReal) : EReal := ∑ l : Fin n, entry b c f l

/-- The starting value does not change a maximum folded from it: max b (fold max b f) is the fold. -/
theorem max_rowMax {n : ℕ} (f : Fin n → EReal) : max b (rowMax b f) = rowMax b f :=
  max_eq_right ((Finset.le_fold_max b).mpr (Or.inl le_rfl))

/-! ## No entry is +∞ -/

/-- For a real c ≥ 0 and ANY extended real p, p · log (c − p) is not +∞: at p = −∞ it is −∞ · +∞, at p = +∞ it
    is +∞ · −∞; at a real p with c − p ≤ 0 (so p ≥ c ≥ 0) it is p · −∞, which is 0 or −∞; otherwise it is real. -/
theorem mul_log_sub_ne_top {r : ℝ} (hr : 0 ≤ r) (p : EReal) : p * Ideal.log ((r : EReal) - p) ≠ ⊤ := by
  induction p using EReal.rec with
  | bot =>
    rw [EReal.coe_sub_bot, Ideal.log_top, EReal.bot_mul_top]
    exact bot_ne_top
  | top =>
    rw [EReal.sub_top, Ideal.log_bot, EReal.top_mul_bot]
    exact bot_ne_top
  | coe q =>
    rw [← EReal.coe_sub, Ideal.log_coe]
    split
    · next h =>
      have hq : 0 ≤ q := by linarith
      rcases hq.lt_or_eq with hpos | hzero
      · rw [EReal.coe_mul_bot_of_pos hpos]; exact bot_ne_top
      · rw [← hzero, EReal.coe_zero, zero_mul]; exact EReal.zero_ne_top
    · rw [← EReal.coe_mul]; exact EReal.coe_ne_top _

/-- A finite sum of extended reals none of which is +∞ is not +∞. -/
theorem sum_ne_top {ι : Type*} (s : Finset ι) (g : ι → EReal) (h : ∀ i ∈ s, g i ≠ ⊤) : ∑ i ∈ s, g i ≠ ⊤ := by
  classical
  induction s using Finset.induction_on with
  | empty => rw [Finset.sum_empty]; exact EReal.zero_ne_top
  | insert a s ha ih =>
    rw [Finset.sum_insert ha]
    exact EReal.add_ne_top (h a (Finset.mem_insert_self a s)) (ih fun i hi => h i (Finset.mem_insert_of_mem hi))

/-- So a row's sum is not +∞ when c is a real that is not negative. -/
theorem rowLoss_ne_top {r : ℝ} (hr : 0 ≤ r) {n : ℕ} (f : Fin n → EReal) : rowLoss b (r : EReal) f ≠ ⊤ :=
  sum_ne_top _ _ fun _ _ => mul_log_sub_ne_top hr _

/-- Negation distributes over the sum of two extended reals neither of which is +∞. -/
theorem neg_add_of_ne_top {x y : EReal} (hx : x ≠ ⊤) (hy : y ≠ ⊤) : -(x + y) = -x + -y := by
  rw [EReal.neg_add (Or.inr hy) (Or.inl hx), sub_eq_add_neg]

/-! ## Regrouping a sum over n = a · b indices into a blocks of b -/

theorem split_lt {a b' n : ℕ} (h : a * b' = n) (t : Fin a) (r : Fin b') : b' * t.val + r.val < n := by
  have h1 : b' * t.val + r.val < b' * (t.val + 1) := by rw [Nat.mul_succ]; exact Nat.add_lt_add_left r.isLt _
  have h2 : b' * (t.val + 1) ≤ b' * a := Nat.mul_le_mul_left b' t.isLt
  rw [← h, Nat.mul_comm a b']; exact lt_of_lt_of_le h1 h2

/-- A sum over `Fin n`, n = a · b, is the sum over the a blocks of the sum over each block's b consecutive indices. -/
theorem sum_split {M : Type*} [AddCommMonoid M] (a b' n : ℕ) (h : a * b' = n) (g : Fin n → M) :
    ∑ i : Fin n, g i = ∑ t : Fin a, ∑ r : Fin b', g ⟨b' * t.val + r.val, split_lt h t r⟩ := by
  subst h
  rw [← Equiv.sum_comp finProdFinEquiv g, Fintype.sum_prod_type]
  refine Finset.sum_congr rfl fun t _ => Finset.sum_congr rfl fun r _ => congrArg g (Fin.ext ?_)
  show r.val + b' * t.val = b' * t.val + r.val
  exact Nat.add_comm _ _

/-! ## The accumulator over the grid's 64 points -/

/-- The accumulator after point n: reset to zero at the first point of a half (n a multiple of 32), then the block sums
    added in point order. -/
def acc (B : ℕ → EReal) : ℕ → EReal
  | 0 => 0 + B 0
  | n + 1 => (if (n + 1) % 32 = 0 then 0 else acc B n) + B (n + 1)

theorem acc_succ (B : ℕ → EReal) (n : ℕ) :
    acc B (n + 1) = (if (n + 1) % 32 = 0 then 0 else acc B n) + B (n + 1) := rfl

/-- After point j of half h the accumulator is the sum of the half's block sums up to j. -/
theorem acc_eq (B : ℕ → EReal) (h j : ℕ) (hj : j < 32) :
    acc B (32 * h + j) = ∑ i ∈ Finset.range (j + 1), B (32 * h + i) := by
  induction j with
  | zero =>
    show acc B (32 * h) = ∑ i ∈ Finset.range 1, B (32 * h + i)
    rw [Finset.sum_range_one, Nat.add_zero]
    rcases h with _ | h'
    · exact zero_add _
    · have e : 32 * (h' + 1) = (32 * h' + 31) + 1 := by omega
      rw [e, acc_succ, if_pos (by omega), zero_add]
  | succ j ih =>
    rw [Finset.sum_range_succ, ← ih (by omega)]
    show acc B ((32 * h + j) + 1) = _
    rw [acc_succ, if_neg (by omega)]
    rfl

/-- After the last point of half h it is the sum of the half's 32 block sums. -/
theorem acc_last (B : ℕ → EReal) (h : ℕ) : acc B (32 * h + 31) = ∑ j : Fin 32, B (32 * h + j.val) := by
  rw [acc_eq B h 31 (by omega), Fin.sum_univ_eq_sum_range (fun i => B (32 * h + i)) 32]

theorem acc_ne_top (B : ℕ → EReal) (hB : ∀ k, B k ≠ ⊤) : ∀ n, acc B n ≠ ⊤
  | 0 => EReal.add_ne_top EReal.zero_ne_top (hB 0)
  | n + 1 => by
    rw [acc_succ]
    refine EReal.add_ne_top ?_ (hB _)
    split
    · exact EReal.zero_ne_top
    · exact acc_ne_top B hB n

/-! ## The matrix's loss, the reference's way and the kernel's way -/

open Idealize.ShloMosaic.ValueIdx

/-- The input matrix at Ideal. -/
abbrev Mat := (⟨2, ![8192, 8192]⟩ : Shape).Idx → EReal

/-- Row ρ of the matrix. -/
def row (A : Mat) (ρ : Fin 8192) : Fin 8192 → EReal := fun k => A (ix2 ρ k)

/-- The sum of the losses of block n's 128 rows (blocks 0 to 63; zero beyond). -/
def blockLoss (A : Mat) (n : ℕ) : EReal :=
  if h : n < 64 then ∑ r : Fin 128, rowLoss lo smooth (row A ⟨128 * n + r.val, by have := r.isLt; omega⟩) else 0

theorem blockLoss_ne_top (A : Mat) {q : ℝ} (hq : 0 ≤ q) (hs : smooth = (q : EReal)) (n : ℕ) : blockLoss A n ≠ ⊤ := by
  unfold blockLoss
  split
  · exact sum_ne_top _ _ fun r _ => by rw [hs]; exact rowLoss_ne_top lo hq _
  · exact EReal.zero_ne_top

/-- The sum of all rows' losses is the accumulator after the first half's last point plus the accumulator after the
    second half's last point: the rows regrouped into 64 blocks of 128, the blocks into 2 halves of 32. -/
theorem total_eq (A : Mat) :
    ∑ ρ : Fin 8192, rowLoss lo smooth (row A ρ) = acc (blockLoss A) (32 * 0 + 31) + acc (blockLoss A) (32 * 1 + 31) := by
  rw [sum_split 64 128 8192 (by norm_num)]
  have hb : ∀ t : Fin 64, ∑ r : Fin 128, rowLoss lo smooth (row A ⟨128 * t.val + r.val, split_lt (by norm_num) t r⟩)
      = blockLoss A t.val := fun t => by unfold blockLoss; rw [dif_pos t.isLt]
  rw [Finset.sum_congr rfl fun t _ => hb t, sum_split 2 32 64 (by norm_num) (fun t => blockLoss A t.val),
    Fin.sum_univ_two, acc_last, acc_last]
  rfl

/-- THE LAW THAT JOINS THE TWO SIDES. Minus the sum of all rows' losses (the reference) is the sum of the two halves'
    negated accumulators (the kernel), because no block sum, hence no accumulator, is +∞. -/
theorem neg_total (A : Mat) {q : ℝ} (hq : 0 ≤ q) (hs : smooth = (q : EReal)) :
    -(∑ ρ : Fin 8192, rowLoss lo smooth (row A ρ))
      = (0 - acc (blockLoss A) (32 * 0 + 31)) + (0 - acc (blockLoss A) (32 * 1 + 31)) := by
  rw [total_eq, neg_add_of_ne_top (acc_ne_top _ (blockLoss_ne_top A hq hs) _) (acc_ne_top _ (blockLoss_ne_top A hq hs) _),
    zero_sub, zero_sub]

end Cert.Entropy

end
-- ==== Proof.Block.lean ====
/-
  The kernel's arithmetic on one block of 128 rows, read at an index.

  The body loads a block x of 128 rows and 8192 columns, takes each row's maximum, subtracts it, exponentiates, sums
  the row, divides (the row's softmax p), forms p · log (c − p), sums each row's 8192 entries, sums the 128 row sums, and
  adds the result to the accumulator it loaded. Read at the accumulator's one index this is
      accumulator + ∑ over the block's rows r of (the row's loss of row r of x),
  with the row's loss the function of Entropy.lean. The keepdims column forms of the layout operations
  ([a] → [a,1], [a,1] → [a,b]) are read at an index first.
-/
import proofs.«107075_j19705309954423_2_alg».proof.Proof.Gen.KernelIdeal.Skeleton
import proofs.«107075_j19705309954423_2_alg».proof.Proof.Entropy
import Idealize.ShloMosaic.Lib.ValueIdx
import Idealize.ShloMosaic.Lib.ValueLayout
import Idealize.ShloMosaic.PureOps.Ideal.Laws

noncomputable section

namespace Cert.KernelIdeal.Block

open Cert.KernelIdeal Idealize.ShloMosaic Idealize.ShloMosaic.ValueIdx Cert.Entropy

/-! ## Column forms of the layout operations -/

/-- A vector of length a viewed as a column [a, 1] reads, at (i, 0), the vector at i. -/
theorem castCol_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast along the rows to [a, b] reads, at (p, c), the column at (p, 0). -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions of a block, read at a row -/

/-- The maximum along the lanes of a [128, 8192] block, at row r: the fold of max over the row from the word of −∞. -/
theorem rowMax_apply (x : FVec Ideal S128x8192 .f32) (h : S128x8192.Reduces [1] S128) (hφ : FKind.Formats .f32)
    (hacc : (0xFF800000#32 : BitVec FTy.f32.bits) = FKind.maximumf.neutral .f32 hφ) (r : Fin 128) :
    multiReduction .maximumf [1] S128 x 0xFF800000#32 h hφ hacc (ix1 r) = rowMax lo (fun k : Fin 8192 => x (ix2 r k)) :=
  (Ideal.multiReduction_maximumf_single x 0xFF800000#32 h hφ hacc (ix1 r)).trans
    (congrArg (fun g : Fin 8192 → EReal => Finset.fold max lo g Finset.univ)
      (funext fun k => congrArg x (funext fun a => Fin.ext (by match a with | ⟨0, _⟩ => rfl | ⟨1, _⟩ => rfl))))

/-- The sum along the lanes of a [128, 8192] block, at row r: the sum over the row. -/
theorem laneSum_apply (w : FVec Ideal S128x8192 .f32) (h : S128x8192.Reduces [1] S128) (hφ : FKind.Formats .f32)
    (hacc : (0x00000000#32 : BitVec FTy.f32.bits) = FKind.add.neutral .f32 hφ) (r : Fin 128) :
    multiReduction .add [1] S128 w 0x00000000#32 h hφ hacc (ix1 r) = ∑ k : Fin 8192, w (ix2 r k) :=
  (Ideal.multiReduction_add_single w 0x00000000#32 h hφ hacc (ix1 r)).trans
    (Finset.sum_congr rfl fun k _ => congrArg w (funext fun a => Fin.ext (by match a with | ⟨0, _⟩ => rfl | ⟨1, _⟩ => rfl)))

/-- The sum along the sublanes of a [128, 1] column: the sum of its 128 entries. -/
theorem sublaneSum_apply (w : FVec Ideal S128x1 .f32) (h : S128x1.Reduces [0] S1) (hφ : FKind.Formats .f32)
    (hacc : (0x00000000#32 : BitVec FTy.f32.bits) = FKind.add.neutral .f32 hφ) (u : Fin 1) :
    multiReduction .add [0] S1 w 0x00000000#32 h hφ hacc (ix1 u) = ∑ r : Fin 128, w (ix2 r u) :=
  (Ideal.multiReduction_add_single w 0x00000000#32 h hφ hacc (ix1 u)).trans
    (Finset.sum_congr rfl fun k _ => congrArg w (funext fun a => Fin.ext (by match a with | ⟨0, _⟩ => rfl | ⟨1, _⟩ => rfl)))

/-! ## The body's values, named -/

/-- exp (x − row maximum), over the block. -/
def expShift (x : FVec Ideal S128x8192 .f32) : FVec Ideal S128x8192 .f32 :=
  exp (subf x (broadcastTo S128x8192 (shapeCast S128x1 (multiReduction .maximumf [1] S128 x 0xFF800000#32 Gen.reduces_S128x8192_S128 (.inl rfl) rfl) Gen.shapeCasts_S128_S128x1) Gen.broadcasts_S128x1_S128x8192))

theorem expShift_apply (x : FVec Ideal S128x8192 .f32) (r : Fin 128) (k : Fin 8192) :
    expShift x (ix2 r k) = Ideal.exp (x (ix2 r k) - rowMax lo (fun k : Fin 8192 => x (ix2 r k))) :=
  congrArg (fun z => Ideal.exp (x (ix2 r k) - z))
    ((bcastCol_apply _ _ r k).trans ((castCol_apply _ _ r 0).trans (rowMax_apply x _ _ _ r)))

/-- The row softmax, over the block. -/
def softmax (x : FVec Ideal S128x8192 .f32) : FVec Ideal S128x8192 .f32 :=
  divf (expShift x) (broadcastTo S128x8192 (shapeCast S128x1 (multiReduction .add [1] S128 (expShift x) 0x00000000#32 Gen.reduces_S128x8192_S128 (.inl rfl) rfl) Gen.shapeCasts_S128_S128x1) Gen.broadcasts_S128x1_S128x8192)

theorem softmax_apply (x : FVec Ideal S128x8192 .f32) (r : Fin 128) (l : Fin 8192) :
    softmax x (ix2 r l) = prob lo (fun k : Fin 8192 => x (ix2 r k)) l := by
  have hd : broadcastTo S128x8192 (shapeCast S128x1 (multiReduction .add [1] S128 (expShift x) 0x00000000#32 Gen.reduces_S128x8192_S128 (.inl rfl) rfl) Gen.shapeCasts_S128_S128x1) Gen.broadcasts_S128x1_S128x8192 (ix2 r l)
      = ∑ k : Fin 8192, Ideal.exp (x (ix2 r k) - rowMax lo (fun k : Fin 8192 => x (ix2 r k))) :=
    (bcastCol_apply _ _ r l).trans ((castCol_apply _ _ r 0).trans ((laneSum_apply (expShift x) _ _ _ r).trans
      (Finset.sum_congr rfl fun k _ => expShift_apply x r k)))
  show Ideal.div (expShift x (ix2 r l)) _ = Ideal.div _ _
  rw [hd, expShift_apply]

/-- p · log (c − p), over the block. -/
def lossTerm (x : FVec Ideal S128x8192 .f32) : FVec Ideal S128x8192 .f32 :=
  mulf (softmax x) (log (subf (broadcast S128x8192 (Scalar.ofBits .f32 0x3F5894B0#32)) (softmax x)))

theorem lossTerm_apply (x : FVec Ideal S128x8192 .f32) (r : Fin 128) (l : Fin 8192) :
    lossTerm x (ix2 r l) = entry lo smooth (fun k : Fin 8192 => x (ix2 r k)) l := by
  show softmax x (ix2 r l) * Ideal.log (smooth - softmax x (ix2 r l)) = _
  rw [softmax_apply]
  rfl

/-! ## The accumulating store's value -/

/-- The value the body stores back into the accumulator is the accumulator it loaded plus the block's sum. -/
theorem pay2_apply (x : Vec Ideal S128x8192 .f32) (v : Vec Ideal S1x1 .f32) (u u' : Fin 1) :
    Gen.k0_pay2 (F := Ideal) x v (ix2 u u')
      = v (ix2 u u') + ∑ r : Fin 128, rowLoss lo smooth (fun k : Fin 8192 => x (ix2 r k)) := by
  have e : Gen.k0_pay2 (F := Ideal) x v = shapeCast S1x1 (addf v (shapeCast S1x1 (multiReduction .add [0] S1
      (shapeCast S128x1 (multiReduction .add [1] S128 (lossTerm x) 0x00000000#32 Gen.reduces_S128x8192_S128 (.inl rfl) rfl) Gen.shapeCasts_S128_S128x1)
      0x00000000#32 Gen.reduces_S128x1_S1 (.inl rfl) rfl) Gen.shapeCasts_S1_S1x1)) Gen.shapeCasts_S1x1_S1x1 := rfl
  rw [e, shapeCast_self]
  refine congrArg (v (ix2 u u') + ·) ?_
  refine (shapeCast_a_1a_apply _ _ u u').trans ?_
  refine (sublaneSum_apply _ _ _ _ u').trans ?_
  refine Finset.sum_congr rfl fun r _ => ?_
  refine (castCol_apply _ _ r u').trans ?_
  refine (laneSum_apply _ _ _ _ r).trans ?_
  exact Finset.sum_congr rfl fun l _ => lossTerm_apply x r l

/-- The zero the first point of each half stores into the accumulator. -/
theorem pay1_apply (y : S1x1.Idx) : Gen.k0_pay1 (F := Ideal) y = 0 := by
  show shapeCast S1x1 (broadcast S1x1 (Scalar.ofBits (F := Ideal) .f32 0x00000000#32)) Gen.shapeCasts_S1x1_S1x1 y = 0
  rw [shapeCast_self]
  exact Ideal.ofBits_zero_f32

/-- The value the last point of each half stores into the output block: 0 − accumulator. -/
theorem pay3_apply (v : Vec Ideal S1x1 .f32) (a u u' : Fin 1) :
    Gen.k0_pay3 (F := Ideal) v (ix3 a u u') = 0 - v (ix2 u u') := by
  have e : Gen.k0_pay3 (F := Ideal) v = shapeCast S1x1x1 (subf (broadcast S1x1 (Scalar.ofBits (F := Ideal) .f32 0x00000000#32)) v) Gen.shapeCasts_S1x1_S1x1x1 := rfl
  rw [e]
  refine (shapeCast_ab_1ab_apply _ _ a u u').trans ?_
  show Ideal.ofBits .f32 0x00000000#32 - v (ix2 u u') = _
  rw [Ideal.ofBits_zero_f32]

end Cert.KernelIdeal.Block

end
-- ==== Proof.Accum.lean ====
/-
  What the kernel's output array holds after the run.

  Point t of the grid (t = 32 · half + step) loads rows 128 t to 128 t + 127 of the matrix, so the sum the body adds to
  the accumulator at point t is the matrix's block loss of block t. By induction on the point the accumulator after
  point t is the function `acc` of Entropy.lean; at the last point of a half the body writes 0 − accumulator into the
  half's entry of the [2, 1, 1] output, and these two write-backs cover the output array.
-/
import proofs.«107075_j19705309954423_2_alg».proof.Proof.Pieces
import proofs.«107075_j19705309954423_2_alg».proof.Proof.Block

noncomputable section

namespace Cert.KernelIdeal.Accum

open Cert.KernelIdeal Cert.KernelIdeal.Gen Idealize.ShloMosaic Idealize.ShloMosaic.TcCoe Idealize.SL.Sem
open Idealize.ShloMosaic.ValueIdx Cert.Entropy
open Idealize.ShloMosaic.Pipeline (Dat)

variable (m : (ℓ : Loc nD τ sig) → Buf (Elt Ideal) ℓ)

/-- The input matrix on core c. -/
abbrev mat (c : Dev nD) : Mat := m ((c : Thread nD τ).loc main_arg0)

/-! ## The printed index maps over the grid -/

/-- The input window's block at point t is block (t, 0); -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- the output window's block at point t is block (t / 32, 0, 0). -/
theorem idx_out : ∀ t : Fin cfg0.N, win0_1.index t (0 : Fin 3) = t.val / 32 ∧ win0_1.index t (1 : Fin 3) = 0
    ∧ win0_1.index t (2 : Fin 3) = 0 :=
  (by decide +kernel : ∀ t : Fin grid0.N, win0_1.index t (0 : Fin 3) = t.val / 32 ∧ win0_1.index t (1 : Fin 3) = 0
    ∧ win0_1.index t (2 : Fin 3) = 0)

/-! ## The block the body loads -/

/-- Entry (r, k) of the block loaded at point t is entry (128 t + r, k) of the matrix. -/
theorem iblk_apply (c : Dev nD) (t : Fin cfg0.N) (r : Fin 128) (k : Fin 8192) (ρ : Fin 8192)
    (hρ : ρ.val = 128 * t.val + r.val) :
    (iblk m c 0 t : Vec Ideal S128x8192 .f32) (ix2 r k) = mat m c (ix2 ρ k) := by
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t 0 * 128 + 1 * r.val = ρ.val; rw [(idx_in t).1, hρ]; omega
  | ⟨1, _⟩ => show win0_0.index t 1 * 8192 + 1 * k.val = k.val; rw [(idx_in t).2]; omega

/-- So the sum of the losses of the loaded block's rows is the matrix's block loss of block t. -/
theorem blockSum_eq (c : Dev nD) (t : Fin cfg0.N) :
    ∑ r : Fin 128, rowLoss lo smooth (fun k : Fin 8192 => (iblk m c 0 t : Vec Ideal S128x8192 .f32) (ix2 r k))
      = blockLoss (mat m c) t.val := by
  have hN : t.val < 64 := lt_of_lt_of_eq t.isLt N_0
  unfold blockLoss
  rw [dif_pos hN]
  refine Finset.sum_congr rfl fun r _ => congrArg (rowLoss lo smooth) (funext fun k => ?_)
  exact iblk_apply m c t r k _ rfl

/-! ## The accumulator, point by point -/

/-- After point n the accumulator holds `acc` of the matrix's block losses at n. -/
theorem scratch_eq (c : Dev nD) : ∀ (n : ℕ) (h : n < cfg0.N) (u u' : Fin 1),
    (outsAt0 m c n h).2 (ix2 u u') = acc (blockLoss (mat m c)) n
  | 0, h, u, u' => by
    rw [outsAt0_A m c ⟨0, h⟩ rfl (by show ¬(0 % 32 = 31); omega)]
    dsimp only
    rw [Pieces.acc_A]
    refine (Block.pay2_apply _ _ u u').trans ?_
    rw [Block.pay1_apply]
    exact congrArg (0 + ·) (blockSum_eq m c ⟨0, h⟩)
  | n + 1, h, u, u' => by
    have hN : n + 1 < 64 := lt_of_lt_of_eq h N_0
    rw [acc_succ]
    by_cases h0 : (n + 1) % 32 = 0
    · have h1 : ¬(n + 1) % 32 = 31 := by omega
      rw [outsAt0_A m c ⟨n + 1, h⟩ h0 h1, if_pos h0]
      dsimp only
      rw [Pieces.acc_A]
      refine (Block.pay2_apply _ _ u u').trans ?_
      rw [Block.pay1_apply]
      exact congrArg (0 + ·) (blockSum_eq m c ⟨n + 1, h⟩)
    · rw [if_neg h0]
      by_cases h1 : (n + 1) % 32 = 31
      · rw [outsAt0_C m c ⟨n + 1, h⟩ h0 h1]
        dsimp only
        rw [Pieces.acc_C]
        refine (Block.pay2_apply _ _ u u').trans ?_
        exact congrArg₂ (· + ·) (scratch_eq c n (Nat.lt_of_succ_lt h) u u') (blockSum_eq m c ⟨n + 1, h⟩)
      · rw [outsAt0_B m c ⟨n + 1, h⟩ h0 h1]
        dsimp only
        rw [Pieces.acc_B]
        refine (Block.pay2_apply _ _ u u').trans ?_
        exact congrArg₂ (· + ·) (scratch_eq c n (Nat.lt_of_succ_lt h) u u') (blockSum_eq m c ⟨n + 1, h⟩)

/-- At the last point of a half the output block holds 0 − accumulator. -/
theorem out_eq (c : Dev nD) (t : Fin cfg0.N) (h31 : t.val % 32 = 31) (a u u' : Fin 1) :
    (outsAt0 m c t.val t.isLt).1 (ix3 a u u') = 0 - acc (blockLoss (mat m c)) t.val := by
  have h0 : ¬t.val % 32 = 0 := by omega
  have e := scratch_eq m c t.val t.isLt u u'
  rw [outsAt0_C m c t h0 h31] at e ⊢
  dsimp only at e ⊢
  rw [Pieces.acc_C] at e
  rw [Pieces.out_C]
  refine (Block.pay3_apply _ a u u').trans ?_
  exact congrArg (0 - ·) e

/-! ## The output array -/

/-- What the [2, 1, 1] output ends holding: entry h is 0 − the accumulator after the last point of half h. -/
def halves (c : Dev nD) : FVec Ideal S2x1x1 .f32 :=
  fun i => 0 - acc (blockLoss (mat m c)) (32 * (i 0).val + 31)

/-- What a flushing point writes back is its block of that array. -/
theorem flushed_eq (c : Dev nD) (t : Fin cfg0.N) (hf : (cfg0.win 1).flush t = true) :
    (dats m 0 c).flushed 1 t = ((cfg0.win 1).blk t).view.read (Elt Ideal) (halves m c) := by
  have h31 : t.val % 32 = 31 := (flush0_1 t).mp hf
  show (cfg0.win 1).cut (grid0.coords t) ((dats m 0 c).after 1 t) = _
  rw [after0_1]
  funext y
  obtain ⟨a, u, u', rfl⟩ : ∃ (a u u' : Fin 1), y = ix3 a u u' := ⟨y 0, y 1, y 2, eq_ix3 y⟩
  show (outsAt0 m c t.val t.isLt).1 (ix3 a u u') = halves m c (((cfg0.win 1).blk t).view.emb (ix3 a u u'))
  rw [out_eq m c t h31 a u u']
  have e : ((((cfg0.win 1).blk t).view.emb (ix3 a u u')) 0).val = t.val / 32 := by
    show win0_1.index t 0 * 1 + 1 * a.val = t.val / 32
    rw [(idx_out t).1]; omega
  unfold halves
  rw [e]
  refine congrArg (fun n => 0 - acc (blockLoss (mat m c)) n) ?_
  omega

/-- The two flushing points (31 and 63) cover the array. -/
theorem cover (c : Dev nD) (i : S2x1x1.Idx) :
    ∃ t : Fin cfg0.N, (cfg0.win 1).flush t = true ∧ i ∈ ((cfg0.win 1).blk t).view.set := by
  have hi0 : (i 0).val < 2 := (i 0).isLt
  have hi1 : (i 1).val < 1 := (i 1).isLt
  have hi2 : (i 2).val < 1 := (i 2).isLt
  have hN : cfg0.N = 64 := N_0
  let t : Fin cfg0.N := ⟨32 * (i 0).val + 31, by omega⟩
  have ht : t.val = 32 * (i 0).val + 31 := rfl
  refine ⟨t, (flush0_1 t).mpr (by rw [ht]; omega), ?_⟩
  show i ∈ ((View.whole main_v0).slice (win0_1.rect t)).set
  rw [View.set_slice_whole, Rect.mem_set_unit]
  obtain ⟨e0, e1, e2⟩ := idx_out t
  intro a
  match a with
  | ⟨0, _⟩ => show win0_1.index t 0 * 1 ≤ (i 0).val ∧ (i 0).val < win0_1.index t 0 * 1 + 1; rw [e0, ht]; omega
  | ⟨1, _⟩ => show win0_1.index t 1 * 1 ≤ (i 1).val ∧ (i 1).val < win0_1.index t 1 * 1 + 1; rw [e1]; omega
  | ⟨2, _⟩ => show win0_1.index t 2 * 1 ≤ (i 2).val ∧ (i 2).val < win0_1.index t 2 * 1 + 1; rw [e2]; omega

/-- So the output array ends holding the two halves' negated accumulators. -/
theorem final_out (c : Dev nD) : (dats m 0 c).arrAt 1 cfg0.N = halves m c :=
  (dats m 0 c).arrAt_eq_of_cover 1 (halves m c) (flushed_eq m c) (cover c)

end Cert.KernelIdeal.Accum

end
-- ==== Proof.KernelRun.lean ====
/-
  The kernel program's run, read: its result is the sum of the two halves' negated accumulators.

  After the region the program adds the two entries of the [2, 1, 1] output from zero and reshapes the scalar to
  itself. The output array after the region is the one of Accum.lean, so the result is
      (0 − accumulator after point 31) + (0 − accumulator after point 63).
-/
import proofs.«107075_j19705309954423_2_alg».proof.Proof.Accum
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.ValueIdx Cert.Entropy Cert.KernelIdeal.Accum Idealize.ShloMosaic.StableHlo

variable (m : (ℓ : Loc nD τ sig) → Buf (Elt Ideal) ℓ) (ρ : Dev nD → PrngReg)

/-- The program's result on core c. -/
def result (c : Dev nD) : EReal :=
  (0 - acc (blockLoss (mat m c)) (32 * 0 + 31)) + (0 - acc (blockLoss (mat m c)) (32 * 1 + 31))

/-- An index of a [2, 1, 1] array is its first coordinate. -/
def halfEquiv : S2x1x1.Idx ≃ Fin 2 where
  toFun j := j 0
  invFun a := ix3 a (0 : Fin 1) (0 : Fin 1)
  left_inv j := funext fun d => Fin.ext (by
    have h1 : (j 1).val < 1 := (j 1).isLt
    have h2 : (j 2).val < 1 := (j 2).isLt
    match d with
    | ⟨0, _⟩ => rfl
    | ⟨1, _⟩ => show 0 = (j 1).val; omega
    | ⟨2, _⟩ => show 0 = (j 2).val; omega)
  right_inv _ := rfl

/-- A sum over a [2, 1, 1] array is the sum of its two entries. -/
theorem sum_halves (g : S2x1x1.Idx → EReal) :
    ∑ j : S2x1x1.Idx, g j = g (ix3 (0 : Fin 2) (0 : Fin 1) (0 : Fin 1)) + g (ix3 (1 : Fin 2) (0 : Fin 1) (0 : Fin 1)) := by
  rw [← Equiv.sum_comp halfEquiv.symm g, Fin.sum_univ_two]
  rfl

/-- The host operations after the region leave the result at the sum of the output array's two entries. -/
theorem tail_eq (c : Dev nD) :
    Pipeline.afterTail₀ cfgs (dats m) 0 (V0 m) [hostOps1] c main_v2 = fun _ => result m c := by
  have hA : Pipeline.withArrays (cfgs 0).spec c (V0 m c) (fun w => (dats m 0 c).arrAt w (cfgs 0).N)
      (Proc.devRef .tc main_v0) = halves m c :=
    (Pipeline.withArrays_arr spec0 launch0.win.arr_inj c _ _ 1).trans (final_out m c)
  unfold Pipeline.afterTail₀
  show StableHlo.after hostOps1 _ (Proc.devRef .tc main_v2) = _
  after_results
  funext i
  show shapeCast S_ (Host.reduceAdd (F := Ideal) (Pipeline.withArrays (cfgs 0).spec c (V0 m c)
      (fun w => (dats m 0 c).arrAt w (cfgs 0).N) (Proc.devRef .tc main_v0)) (constant S_ .f32 0x00000000#32)
      reducesTo_S2x1x1_S_d0_1_2 h_S_) shapeCasts_S_S_ i = _
  rw [shapeCast_self, hA]
  simp only [Host.reduceAdd, Ideal.hostReduceAdd_def]
  rw [Ideal.hostReduceAdd_total reducesTo_S2x1x1_S_d0_1_2 (fun b => b.elim0) (halves m c) _ i, sum_halves]
  show Ideal.ofBits .f32 0x00000000#32 + _ = _
  rw [Ideal.ofBits_zero_f32, zero_add]
  rfl

/-- The run: the result buffer at `result`, the arguments unchanged. -/
theorem run : θ_run defs (onTc (τ := τ) (main (F := Ideal))) ⟨m, fun _ => 0, ρ⟩ fun r => ∀ c : Dev nD,
      r.2.mem ((c.tc : Thread nD τ).loc main_v2) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Run

end
-- ==== Proof.RefRead.lean ====
/-
  The reference program's run and its stages read at an index (generated modules), gathered for the
  modules that compare the reference's value with the kernel's.
-/
import proofs.«107075_j19705309954423_2_alg».proof.Proof.Gen.ReferenceIdeal.Read
-- ==== Proof.RefValue.lean ====
/-
  The reference's result, read one operation at a time.

  The reference takes each row's maximum (from the word of −∞, and once more against that word), subtracts it,
  exponentiates, sums the row from zero, divides, subtracts the quotient from c · 1 (c broadcast along the columns),
  takes the logarithm, multiplies, sums the whole matrix from zero, and negates. Read at Ideal, entry (ρ, l) of the
  product is the entry term of row ρ at column l (Entropy.lean), so the result is minus the sum of all rows' losses.
-/
import proofs.«107075_j19705309954423_2_alg».proof.Proof.RefRead
import proofs.«107075_j19705309954423_2_alg».proof.Proof.Entropy
import Idealize.ShloMosaic.PureOps.IdealRules

noncomputable section

namespace Cert.ReferenceIdeal.RefValue

open Cert.ReferenceIdeal Cert.ReferenceIdeal.Gen Cert.ReferenceIdeal.Read Idealize.ShloMosaic
open Idealize.ShloMosaic.ValueIdx Cert.Entropy

variable (A : FVec Ideal S8192x8192 .f32)

/-- The reduce over the columns at row ρ is the fold of max over the row. -/
theorem v0_apply (ρ : Fin 8192) : val_main_v0 (F := Ideal) A (ix1 ρ) = rowMax lo (row A ρ) :=
  (Host.reduce_eq_fold_single FloatOps.maximumf A (val_main_cst (F := Ideal)) reducesTo_S8192x8192_S8192_d1
      (by decide) h_S_ (ix1 ρ)).trans
    (congrArg (fun g : Fin 8192 → EReal => Finset.fold max lo g Finset.univ)
      (funext fun k => congrArg A (funext fun a => Fin.ext (by match a with | ⟨0, _⟩ => rfl | ⟨1, _⟩ => rfl))))

/-- Taking the maximum with the word of −∞ once more changes nothing. -/
theorem v2_apply (ρ : Fin 8192) : val_main_v2 (F := Ideal) A (ix1 ρ) = rowMax lo (row A ρ) := by
  rw [val_main_v2_apply, val_main_v1_apply, val_main_cst_0_apply, v0_apply]
  exact max_rowMax lo _

theorem v4_apply (ρ k : Fin 8192) : val_main_v4 (F := Ideal) A (ix2 ρ k) = rowMax lo (row A ρ) := by
  have e : idx_main_v3 (idx_main_v4 (ix2 ρ k)) = ix1 ρ :=
    funext fun a => Fin.ext (by match a with | ⟨0, _⟩ => rfl)
  rw [val_main_v4_apply, val_main_v3_apply, e, v2_apply]

theorem v6_apply (ρ k : Fin 8192) :
    val_main_v6 (F := Ideal) A (ix2 ρ k) = Ideal.exp (row A ρ k - rowMax lo (row A ρ)) := by
  rw [val_main_v6_apply, val_main_v5_apply, v4_apply]
  rfl

theorem v9_apply (ρ l : Fin 8192) :
    val_main_v9 (F := Ideal) A (ix2 ρ l) = ∑ k : Fin 8192, Ideal.exp (row A ρ k - rowMax lo (row A ρ)) := by
  have e : idx_main_v8 (idx_main_v9 (ix2 ρ l)) = ix1 ρ :=
    funext fun a => Fin.ext (by match a with | ⟨0, _⟩ => rfl)
  rw [val_main_v9_apply, val_main_v8_apply, e, val_main_v7_apply, val_main_cst_1_apply]
  show Ideal.ofBits .f32 0x00000000#32 + _ = _
  rw [Ideal.ofBits_zero_f32, zero_add]
  refine Finset.sum_congr rfl fun k _ => ?_
  have e2 : idx_main_v7 (ix1 ρ) k = ix2 ρ k :=
    funext fun a => Fin.ext (by match a with | ⟨0, _⟩ => rfl | ⟨1, _⟩ => rfl)
  rw [e2, v6_apply]

/-- The quotient is the row's softmax. -/
theorem v10_apply (ρ l : Fin 8192) : val_main_v10 (F := Ideal) A (ix2 ρ l) = prob lo (row A ρ) l := by
  rw [val_main_v10_apply, v6_apply, v9_apply]
  rfl

/-- The constant c · 1, broadcast along the columns, is c everywhere. -/
theorem v15_apply (i : S8192x8192.Idx) : val_main_v15 (F := Ideal) i = smooth := by
  rw [val_main_v15_apply, val_main_v14_apply, val_main_v13_apply, val_main_v12_apply, val_main_v11_apply,
    val_main_cst_3_apply, val_main_cst_2_apply]
  show Ideal.ofBits .f32 0x3F5894B0#32 * Ideal.ofBits .f32 0x3F800000#32 = _
  rw [show Ideal.ofBits .f32 0x3F800000#32 = 1 from IdealRules.sign_bit.ideal_onePat .f32, mul_one]

theorem v18_apply (ρ l : Fin 8192) : val_main_v18 (F := Ideal) A (ix2 ρ l) = entry lo smooth (row A ρ) l := by
  rw [val_main_v18_apply, val_main_v17_apply, val_main_v16_apply, v10_apply, v15_apply]
  rfl

/-- The reference's result is minus the sum of all rows' losses. -/
theorem result_apply (i : S_.Idx) :
    val_main_v20 (F := Ideal) A i = -(∑ ρ : Fin 8192, rowLoss lo smooth (row A ρ)) := by
  rw [val_main_v20_apply, val_main_v19_apply, val_main_cst_4_apply]
  show -(Ideal.ofBits .f32 0x00000000#32 + _) = _
  rw [Ideal.ofBits_zero_f32, zero_add, sum_idx2]
  exact congrArg Neg.neg (Finset.sum_congr rfl fun ρ _ => Finset.sum_congr rfl fun l _ => v18_apply A ρ l)

end Cert.ReferenceIdeal.RefValue

end
-- ==== Proof.lean ====
/-
  The smoothed cross-entropy kernel against its jnp reference, over the extended reals.

  Both programs compute, for the 8192 × 8192 input matrix x,
      loss = − ∑ over all entries (ρ, l) of p(ρ, l) · log (c − p(ρ, l)),
  where p(ρ, ·) is the softmax of row ρ (exp of the row minus its maximum, over the sum of those exponentials) and c is
  the constant 1 − α + α/V, spelt as the same f32 word in both. The reference forms the whole matrix of terms, sums it in
  one sum and negates. The kernel walks a 2 × 32 grid: each point takes a block of 128 rows, sums its terms row by row
  and adds the block's sum to an accumulator that is reset at the first point of each half of the grid; at the last
  point of a half it writes 0 − accumulator to that half's entry of a two-entry output, and the program around the
  kernel adds the two entries.

  Entry by entry the two sides are the same function of the matrix (Block.lean for the kernel's block arithmetic,
  RefValue.lean for the reference's operations; the reference's extra maximum with −∞ and its product c · 1 change
  nothing). The sums differ only in grouping, which addition on the extended reals allows (Entropy.lean, `total_eq`).
  The one step that is not free is the sign: −(a + b) = (−a) + (−b) fails for opposite infinities. It holds here because
  p · log (c − p) is never +∞ for a real c ≥ 0, whatever p is, so neither half's sum is +∞ (Entropy.lean,
  `mul_log_sub_ne_top`, `neg_total`); that c's word denotes a nonnegative real is Consts.lean. The precondition (finite
  inputs) is not needed for this.

  The three frames: the kernel's two are the generated frame certificates; the reference has no kernel, and its frame
  is its generated run with the result dropped. The idealization rewrote nothing, so `preserves` is `True`.
-/
import proofs.«107075_j19705309954423_2_alg».proof.Defs
import proofs.«107075_j19705309954423_2_alg».proof.Proof.Gen.Kernel
import proofs.«107075_j19705309954423_2_alg».proof.Proof.Gen.Kernel.Frame
import proofs.«107075_j19705309954423_2_alg».proof.Proof.Gen.KernelIdeal
import proofs.«107075_j19705309954423_2_alg».proof.Proof.Gen.KernelIdeal.Frame
import proofs.«107075_j19705309954423_2_alg».proof.Proof.Gen.ReferenceIdeal
import proofs.«107075_j19705309954423_2_alg».proof.Proof.Gen.Pre_finite_inputs
import proofs.«107075_j19705309954423_2_alg».proof.Proof.Consts
import proofs.«107075_j19705309954423_2_alg».proof.Proof.KernelRun
import proofs.«107075_j19705309954423_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- At Ideal the kernel program ends at the sum of its two halves' negated accumulators and the reference at minus the
    sum of all rows' losses of a matrix that agrees: equal, by the regrouping of the sum and the distribution of the
    sign over two sums that are not +∞. -/
theorem algebraic : Cert.algebraic_KernelIdeal_ReferenceIdeal := by
  intro m ρ m' ρ' _ hagree
  refine ⟨fun c => fun _ => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1]
  funext i
  obtain ⟨q, hq, hs⟩ := Cert.Consts.smooth_real
  rw [Cert.ReferenceIdeal.RefValue.result_apply]
  exact Cert.Entropy.neg_total _ hq hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
